-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x6x6 : Shape := ⟨3, ![2000000, 6, 6]⟩
abbrev S_ : Shape := ⟨0, ![]⟩

class Facts : Prop where
  bcast_S_S2000000x6x6 : S_.BroadcastsInDim S2000000x6x6 (![] : Fin 0 → Fin S2000000x6x6.rank)
  reducesTo_S2000000x6x6_S_d0_1_2 : S2000000x6x6.ReducesTo [0, 1, 2] S_
  h_S_ : 0 < S_.numel

variable [Facts]

def fn {F : FTy → Type} [FloatOps F] (main_arg0 : FVec F S2000000x6x6 .f32) : IVec S_ 1 :=
  let main_v0 : FVec F S2000000x6x6 .f32 := Host.absf main_arg0
  let main_cst : FVec F S_ .f32 := constant S_ .f32 0x7F800000#32
  let main_v1 : FVec F S2000000x6x6 .f32 := broadcastInDim S2000000x6x6 ![] bcast_S_S2000000x6x6 main_cst
  let main_v2 : IVec S2000000x6x6 1 := cmpf .olt main_v0 main_v1
  let main_c : IVec S_ 1 := constantI S_ 1 1#1
  let main_v3 : IVec S_ 1 := (fun x v => Host.reduce IntOp.andi x v reducesTo_S2000000x6x6_S_d0_1_2 h_S_) main_v2 main_c
  main_v3
-- ==== Kernel.lean ====
abbrev S2000000x6x6 : Shape := ⟨3, ![2000000, 6, 6]⟩
abbrev S2000000x36 : Shape := ⟨2, ![2000000, 36]⟩
abbrev S8000x36 : Shape := ⟨2, ![8000, 36]⟩
abbrev S36x8000 : Shape := ⟨2, ![36, 8000]⟩
abbrev S6x6x8000 : Shape := ⟨3, ![6, 6, 8000]⟩
abbrev S1x1x8000 : Shape := ⟨3, ![1, 1, 8000]⟩
abbrev S8000 : Shape := ⟨1, ![8000]⟩
abbrev S1x6x8000 : Shape := ⟨3, ![1, 6, 8000]⟩
abbrev S6x8000 : Shape := ⟨2, ![6, 8000]⟩
abbrev S1x8000 : Shape := ⟨2, ![1, 8000]⟩

abbrev nBuf : Space → Nat
  | .hbm => 4
  | .vmem => 4
  | .smem => 0
  | _ => 0

abbrev bufTy : (tb : Table) → Fin (tcTables nBuf tb) → BufTy
  | .hbm, ⟨0, _⟩ => ⟨S2000000x6x6, .f32⟩
  | .hbm, ⟨1, _⟩ => ⟨S2000000x36, .f32⟩
  | .hbm, ⟨2, _⟩ => ⟨S2000000x36, .f32⟩
  | .hbm, ⟨3, _⟩ => ⟨S2000000x6x6, .f32⟩
  | .local _ .vmem, ⟨0, _⟩ => ⟨S8000x36, .f32⟩
  | .local _ .vmem, ⟨1, _⟩ => ⟨S8000x36, .f32⟩
  | .local _ .vmem, ⟨2, _⟩ => ⟨S8000x36, .f32⟩
  | .local _ .vmem, ⟨3, _⟩ => ⟨S8000x36, .f32⟩
  | _, _ => ⟨S2000000x6x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x36 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x36 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S2000000x6x6_S2000000x36 : S2000000x6x6.ShapeCasts S2000000x36
  inb_S8000x36_S8000x36_0_0 : ∀ a, (![0, 0] : Fin 2 → Nat) a + S8000x36.size a ≤ S8000x36.size a
  h_S8000x36 : 0 < S8000x36.numel
  shapeCasts_S8000x36_S8000x36 : S8000x36.ShapeCasts S8000x36
  transposes_S8000x36_p1_0_S36x8000 : S8000x36.Transposes [1, 0] S36x8000
  shapeCasts_S36x8000_S6x6x8000 : S36x8000.ShapeCasts S6x6x8000
  slices_S6x6x8000_o0_0_0_S1x1x8000 : S6x6x8000.Slices ![0, 0, 0] S1x1x8000
  shapeCasts_S1x1x8000_S8000 : S1x1x8000.ShapeCasts S8000
  slices_S6x6x8000_o0_0_0_S1x6x8000 : S6x6x8000.Slices ![0, 0, 0] S1x6x8000
  shapeCasts_S1x6x8000_S6x8000 : S1x6x8000.ShapeCasts S6x8000
  shapeCasts_S8000_S1x8000 : S8000.ShapeCasts S1x8000
  broadcasts_S1x8000_S6x8000 : S1x8000.Broadcasts S6x8000
  slices_S6x6x8000_o0_1_0_S1x1x8000 : S6x6x8000.Slices ![0, 1, 0] S1x1x8000
  slices_S6x6x8000_o1_0_0_S1x6x8000 : S6x6x8000.Slices ![1, 0, 0] S1x6x8000
  slices_S6x6x8000_o0_2_0_S1x1x8000 : S6x6x8000.Slices ![0, 2, 0] S1x1x8000
  slices_S6x6x8000_o2_0_0_S1x6x8000 : S6x6x8000.Slices ![2, 0, 0] S1x6x8000
  slices_S6x6x8000_o0_3_0_S1x1x8000 : S6x6x8000.Slices ![0, 3, 0] S1x1x8000
  slices_S6x6x8000_o3_0_0_S1x6x8000 : S6x6x8000.Slices ![3, 0, 0] S1x6x8000
  slices_S6x6x8000_o0_4_0_S1x1x8000 : S6x6x8000.Slices ![0, 4, 0] S1x1x8000
  slices_S6x6x8000_o4_0_0_S1x6x8000 : S6x6x8000.Slices ![4, 0, 0] S1x6x8000
  slices_S6x6x8000_o0_5_0_S1x1x8000 : S6x6x8000.Slices ![0, 5, 0] S1x1x8000
  slices_S6x6x8000_o5_0_0_S1x6x8000 : S6x6x8000.Slices ![5, 0, 0] S1x6x8000
  slices_S6x6x8000_o1_0_0_S1x1x8000 : S6x6x8000.Slices ![1, 0, 0] S1x1x8000
  slices_S6x6x8000_o1_1_0_S1x1x8000 : S6x6x8000.Slices ![1, 1, 0] S1x1x8000
  slices_S6x6x8000_o1_2_0_S1x1x8000 : S6x6x8000.Slices ![1, 2, 0] S1x1x8000
  slices_S6x6x8000_o1_3_0_S1x1x8000 : S6x6x8000.Slices ![1, 3, 0] S1x1x8000
  slices_S6x6x8000_o1_4_0_S1x1x8000 : S6x6x8000.Slices ![1, 4, 0] S1x1x8000
  slices_S6x6x8000_o1_5_0_S1x1x8000 : S6x6x8000.Slices ![1, 5, 0] S1x1x8000
  slices_S6x6x8000_o2_0_0_S1x1x8000 : S6x6x8000.Slices ![2, 0, 0] S1x1x8000
  slices_S6x6x8000_o2_1_0_S1x1x8000 : S6x6x8000.Slices ![2, 1, 0] S1x1x8000
  slices_S6x6x8000_o2_2_0_S1x1x8000 : S6x6x8000.Slices ![2, 2, 0] S1x1x8000
  slices_S6x6x8000_o2_3_0_S1x1x8000 : S6x6x8000.Slices ![2, 3, 0] S1x1x8000
  slices_S6x6x8000_o2_4_0_S1x1x8000 : S6x6x8000.Slices ![2, 4, 0] S1x1x8000
  slices_S6x6x8000_o2_5_0_S1x1x8000 : S6x6x8000.Slices ![2, 5, 0] S1x1x8000
  slices_S6x6x8000_o3_0_0_S1x1x8000 : S6x6x8000.Slices ![3, 0, 0] S1x1x8000
  slices_S6x6x8000_o3_1_0_S1x1x8000 : S6x6x8000.Slices ![3, 1, 0] S1x1x8000
  slices_S6x6x8000_o3_2_0_S1x1x8000 : S6x6x8000.Slices ![3, 2, 0] S1x1x8000
  slices_S6x6x8000_o3_3_0_S1x1x8000 : S6x6x8000.Slices ![3, 3, 0] S1x1x8000
  slices_S6x6x8000_o3_4_0_S1x1x8000 : S6x6x8000.Slices ![3, 4, 0] S1x1x8000
  slices_S6x6x8000_o3_5_0_S1x1x8000 : S6x6x8000.Slices ![3, 5, 0] S1x1x8000
  slices_S6x6x8000_o4_0_0_S1x1x8000 : S6x6x8000.Slices ![4, 0, 0] S1x1x8000
  slices_S6x6x8000_o4_1_0_S1x1x8000 : S6x6x8000.Slices ![4, 1, 0] S1x1x8000
  slices_S6x6x8000_o4_2_0_S1x1x8000 : S6x6x8000.Slices ![4, 2, 0] S1x1x8000
  slices_S6x6x8000_o4_3_0_S1x1x8000 : S6x6x8000.Slices ![4, 3, 0] S1x1x8000
  slices_S6x6x8000_o4_4_0_S1x1x8000 : S6x6x8000.Slices ![4, 4, 0] S1x1x8000
  slices_S6x6x8000_o4_5_0_S1x1x8000 : S6x6x8000.Slices ![4, 5, 0] S1x1x8000
  slices_S6x6x8000_o5_0_0_S1x1x8000 : S6x6x8000.Slices ![5, 0, 0] S1x1x8000
  slices_S6x6x8000_o5_1_0_S1x1x8000 : S6x6x8000.Slices ![5, 1, 0] S1x1x8000
  slices_S6x6x8000_o5_2_0_S1x1x8000 : S6x6x8000.Slices ![5, 2, 0] S1x1x8000
  slices_S6x6x8000_o5_3_0_S1x1x8000 : S6x6x8000.Slices ![5, 3, 0] S1x1x8000
  slices_S6x6x8000_o5_4_0_S1x1x8000 : S6x6x8000.Slices ![5, 4, 0] S1x1x8000
  slices_S6x6x8000_o5_5_0_S1x1x8000 : S6x6x8000.Slices ![5, 5, 0] S1x1x8000
  shapeCasts_S6x8000_S1x6x8000 : S6x8000.ShapeCasts S1x6x8000
  concatenates_S1x6x8000_S1x6x8000_S1x6x8000_S1x6x8000_S1x6x8000_S1x6x8000_S6x6x8000_d0 : Shape.Concatenates [S1x6x8000, S1x6x8000, S1x6x8000, S1x6x8000, S1x6x8000, S1x6x8000] S6x6x8000 0
  shapeCasts_S6x6x8000_S36x8000 : S6x6x8000.ShapeCasts S36x8000
  transposes_S36x8000_p1_0_S8000x36 : S36x8000.Transposes [1, 0] S8000x36
  shapeCasts_S2000000x36_S2000000x6x6 : S2000000x36.ShapeCasts S2000000x6x6
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x36.size a ≤ S2000000x36.size a
  hwx0_0 : ∀ i : grid0.Coords, EltTy.bits .f32 = 32 ∨ (Rect.block (s := S2000000x36) S8000x36.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x36.size a ≤ S2000000x36.size a
  hwx0_1 : ∀ i : grid0.Coords, EltTy.bits .f32 = 32 ∨ (Rect.block (s := S2000000x36) S8000x36.size (cc0_transform_1 i) (hinb0_1 i)).WholeWords (EltTy.packing .f32)

variable [Facts₀]

abbrev win0_0 : Pipeline.Window sig grid0 :=
  Pipeline.Window.ofSpec (Memref.whole main_v0) S8000x36.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8000x36.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2000000x6x6 : Shape := ⟨3, ![2000000, 6, 6]⟩

abbrev nBuf : Space → Nat
  | .hbm => 3
  | .vmem => 0
  | .smem => 0
  | _ => 0

abbrev bufTy : (tb : Table) → Fin (tcTables nBuf tb) → BufTy
  | .hbm, ⟨0, _⟩ => ⟨S2000000x6x6, .f32⟩
  | .hbm, ⟨1, _⟩ => ⟨S2000000x6x6, .f32⟩
  | .hbm, ⟨2, _⟩ => ⟨S2000000x6x6, .f32⟩
  | _, _ => ⟨S2000000x6x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]

class Facts₀ : Prop where
  dot_S2000000x6x6_S2000000x6x6_S2000000x6x6_2_1_1_2_0_0_wf : DotDims.WF S2000000x6x6 S2000000x6x6 S2000000x6x6 [2] [1] [1] [2] [0] [0]

variable [Facts₀]

def dot_S2000000x6x6_S2000000x6x6_S2000000x6x6_2_1_1_2_0_0 : DotDims S2000000x6x6 S2000000x6x6 S2000000x6x6 where
  lhsContracting := [2]
  rhsContracting := [1]
  lhsNonContracting := [1]
  rhsNonContracting := [2]
  lhsBatch := [0]
  rhsBatch := [0]
  wf := dot_S2000000x6x6_S2000000x6x6_S2000000x6x6_2_1_1_2_0_0_wf

class Facts : Prop extends Facts₀ where

variable [Facts]
-- ==== Proof.LibSlabs.lean ====
/-
  Slabs of a rank-3 array read at one index, for any extents and any entries.

  An [a, b, c] array is a pile of a slabs, each a b-by-c matrix. Cutting out the single lane vector at slab p, row q
  (a [1, 1, c] piece) or the whole slab p (a [1, b, c] piece) keeps the entries: the piece at (0, 0, n), resp. (0, j, n),
  is the array at (p, q, n), resp. (p, j, n). A [1, 1, c] piece flattened to a vector of c entries reads the piece at
  (0, 0, n). Six [1, b, c] slabs piled along the leading axis give a [6, b, c] array whose entry (i, j, n) is slab i
  at (0, j, n).
-/
import Idealize.ShloMosaic.Lib.Pipeline.Value
import Idealize.ShloMosaic.Lib.ValueIdx
import Idealize.ShloMosaic.Lib.ValueLayout

namespace Cert.LibSlabs

open Idealize.ShloMosaic Idealize.ShloMosaic.ValueIdx

variable {α : Type}

/-- A `[1, 1, c]` array flattened to `[c]` reads, at `n`, the operand at `(0, 0, n)`. -/
theorem cast_11c_c_apply {c : ℕ} (x : (⟨3, ![1, 1, c]⟩ : Shape).Idx → α)
    (h : (⟨3, ![1, 1, c]⟩ : Shape).ShapeCasts ⟨1, ![c]⟩) (n : Fin c) :
    shapeCast ⟨1, ![c]⟩ x h (ix1 n) = x (ix3 (0 : Fin 1) (0 : Fin 1) n) :=
  shapeCast_apply x h _ _ (by
    rw [Shape.rowMajor_val_three, Shape.rowMajor_val_one]
    show (0 * 1 + 0) * c + n.val = n.val
    rw [Nat.zero_mul, Nat.zero_add])

/-- The slab offset of a `[1, 1, c]` cut at `(p, q, 0)` of an `[a, b, c]` array is a slab of the array. -/
theorem cell_lt0 {a b c p q : ℕ} (h : (⟨3, ![a, b, c]⟩ : Shape).Slices ![p, q, 0] ⟨3, ![1, 1, c]⟩) : p < a := by
  have h0 := h.2 ⟨0, by show 0 < 3; omega⟩
  exact h0

/-- The row offset of a `[1, 1, c]` cut at `(p, q, 0)` of an `[a, b, c]` array is a row of the slab. -/
theorem cell_lt1 {a b c p q : ℕ} (h : (⟨3, ![a, b, c]⟩ : Shape).Slices ![p, q, 0] ⟨3, ![1, 1, c]⟩) : q < b := by
  have h1 := h.2 ⟨1, by show 1 < 3; omega⟩
  exact h1

/-- The lane vector cut out of an `[a, b, c]` array at slab `p`, row `q` reads, at `(0, 0, n)`, the array at
    `(p, q, n)`. -/
theorem cell_apply {a b c p q : ℕ} (x : (⟨3, ![a, b, c]⟩ : Shape).Idx → α)
    (h : (⟨3, ![a, b, c]⟩ : Shape).Slices ![p, q, 0] ⟨3, ![1, 1, c]⟩) (u v : Fin 1) (n : Fin c) :
    extractStridedSlice ⟨3, ![1, 1, c]⟩ ![p, q, 0] x h (ix3 u v n)
      = x (ix3 (⟨p, cell_lt0 h⟩ : Fin a) (⟨q, cell_lt1 h⟩ : Fin b) n) :=
  extractStridedSlice_apply _ x h _ _ fun d => match d with
    | ⟨0, _⟩ => by show p = p + u.val; omega
    | ⟨1, _⟩ => by show q = q + v.val; omega
    | ⟨2, _⟩ => by show n.val = 0 + n.val; omega

/-- The slab offset of a `[1, b, c]` cut at `(p, 0, 0)` of an `[a, b, c]` array is a slab of the array. -/
theorem slab_lt {a b c p : ℕ} (h : (⟨3, ![a, b, c]⟩ : Shape).Slices ![p, 0, 0] ⟨3, ![1, b, c]⟩) : p < a := by
  have h0 := h.2 ⟨0, by show 0 < 3; omega⟩
  exact h0

/-- Slab `p` cut out of an `[a, b, c]` array reads, at `(0, j, n)`, the array at `(p, j, n)`. -/
theorem slab_apply {a b c p : ℕ} (x : (⟨3, ![a, b, c]⟩ : Shape).Idx → α)
    (h : (⟨3, ![a, b, c]⟩ : Shape).Slices ![p, 0, 0] ⟨3, ![1, b, c]⟩) (u : Fin 1) (j : Fin b) (n : Fin c) :
    extractStridedSlice ⟨3, ![1, b, c]⟩ ![p, 0, 0] x h (ix3 u j n) = x (ix3 (⟨p, slab_lt h⟩ : Fin a) j n) :=
  extractStridedSlice_apply _ x h _ _ fun d => match d with
    | ⟨0, _⟩ => by show p = p + u.val; omega
    | ⟨1, _⟩ => by show j.val = 0 + j.val; omega
    | ⟨2, _⟩ => by show n.val = 0 + n.val; omega

/-! ## Six slabs piled along the leading axis -/

/-- Six `[1, b, c]` slabs piled along the leading axis read, at `(0, j, n)`, slab 0 at `(0, j, n)`. -/
theorem stack6_at0 {b c : ℕ} (x0 x1 x2 x3 x4 x5 : (⟨3, ![1, b, c]⟩ : Shape).Idx → α)
    (h : Shape.Concatenates (([⟨⟨3, ![1, b, c]⟩, x0⟩, ⟨⟨3, ![1, b, c]⟩, x1⟩, ⟨⟨3, ![1, b, c]⟩, x2⟩, ⟨⟨3, ![1, b, c]⟩, x3⟩, ⟨⟨3, ![1, b, c]⟩, x4⟩, ⟨⟨3, ![1, b, c]⟩, x5⟩] : List ((s : Shape) × (s.Idx → α))).map (·.1)) ⟨3, ![6, b, c]⟩ 0)
    (hk : 0 < 6) (j : Fin b) (n : Fin c) :
    concatenate ⟨3, ![6, b, c]⟩ 0 [⟨⟨3, ![1, b, c]⟩, x0⟩, ⟨⟨3, ![1, b, c]⟩, x1⟩, ⟨⟨3, ![1, b, c]⟩, x2⟩, ⟨⟨3, ![1, b, c]⟩, x3⟩, ⟨⟨3, ![1, b, c]⟩, x4⟩, ⟨⟨3, ![1, b, c]⟩, x5⟩] h (ix3 (⟨0, hk⟩ : Fin 6) j n) = x0 (ix3 (0 : Fin 1) j n) :=
  concatenate_apply_piece 0 _ h _ 0 (by show 0 < 6; omega) ⟨3, ![1, b, c]⟩ x0 rfl rfl 0 rfl (ix3 (0 : Fin 1) j n)
    (fun d hd => match d, hd with
      | ⟨0, _⟩, hd => absurd rfl hd
      | ⟨1, _⟩, _ => rfl
      | ⟨2, _⟩, _ => rfl) rfl

/-- Six `[1, b, c]` slabs piled along the leading axis read, at `(1, j, n)`, slab 1 at `(0, j, n)`. -/
theorem stack6_at1 {b c : ℕ} (x0 x1 x2 x3 x4 x5 : (⟨3, ![1, b, c]⟩ : Shape).Idx → α)
    (h : Shape.Concatenates (([⟨⟨3, ![1, b, c]⟩, x0⟩, ⟨⟨3, ![1, b, c]⟩, x1⟩, ⟨⟨3, ![1, b, c]⟩, x2⟩, ⟨⟨3, ![1, b, c]⟩, x3⟩, ⟨⟨3, ![1, b, c]⟩, x4⟩, ⟨⟨3, ![1, b, c]⟩, x5⟩] : List ((s : Shape) × (s.Idx → α))).map (·.1)) ⟨3, ![6, b, c]⟩ 0)
    (hk : 1 < 6) (j : Fin b) (n : Fin c) :
    concatenate ⟨3, ![6, b, c]⟩ 0 [⟨⟨3, ![1, b, c]⟩, x0⟩, ⟨⟨3, ![1, b, c]⟩, x1⟩, ⟨⟨3, ![1, b, c]⟩, x2⟩, ⟨⟨3, ![1, b, c]⟩, x3⟩, ⟨⟨3, ![1, b, c]⟩, x4⟩, ⟨⟨3, ![1, b, c]⟩, x5⟩] h (ix3 (⟨1, hk⟩ : Fin 6) j n) = x1 (ix3 (0 : Fin 1) j n) :=
  concatenate_apply_piece 0 _ h _ 1 (by show 1 < 6; omega) ⟨3, ![1, b, c]⟩ x1 rfl rfl 1 rfl (ix3 (0 : Fin 1) j n)
    (fun d hd => match d, hd with
      | ⟨0, _⟩, hd => absurd rfl hd
      | ⟨1, _⟩, _ => rfl
      | ⟨2, _⟩, _ => rfl) rfl

/-- Six `[1, b, c]` slabs piled along the leading axis read, at `(2, j, n)`, slab 2 at `(0, j, n)`. -/
theorem stack6_at2 {b c : ℕ} (x0 x1 x2 x3 x4 x5 : (⟨3, ![1, b, c]⟩ : Shape).Idx → α)
    (h : Shape.Concatenates (([⟨⟨3, ![1, b, c]⟩, x0⟩, ⟨⟨3, ![1, b, c]⟩, x1⟩, ⟨⟨3, ![1, b, c]⟩, x2⟩, ⟨⟨3, ![1, b, c]⟩, x3⟩, ⟨⟨3, ![1, b, c]⟩, x4⟩, ⟨⟨3, ![1, b, c]⟩, x5⟩] : List ((s : Shape) × (s.Idx → α))).map (·.1)) ⟨3, ![6, b, c]⟩ 0)
    (hk : 2 < 6) (j : Fin b) (n : Fin c) :
    concatenate ⟨3, ![6, b, c]⟩ 0 [⟨⟨3, ![1, b, c]⟩, x0⟩, ⟨⟨3, ![1, b, c]⟩, x1⟩, ⟨⟨3, ![1, b, c]⟩, x2⟩, ⟨⟨3, ![1, b, c]⟩, x3⟩, ⟨⟨3, ![1, b, c]⟩, x4⟩, ⟨⟨3, ![1, b, c]⟩, x5⟩] h (ix3 (⟨2, hk⟩ : Fin 6) j n) = x2 (ix3 (0 : Fin 1) j n) :=
  concatenate_apply_piece 0 _ h _ 2 (by show 2 < 6; omega) ⟨3, ![1, b, c]⟩ x2 rfl rfl 2 rfl (ix3 (0 : Fin 1) j n)
    (fun d hd => match d, hd with
      | ⟨0, _⟩, hd => absurd rfl hd
      | ⟨1, _⟩, _ => rfl
      | ⟨2, _⟩, _ => rfl) rfl

/-- Six `[1, b, c]` slabs piled along the leading axis read, at `(3, j, n)`, slab 3 at `(0, j, n)`. -/
theorem stack6_at3 {b c : ℕ} (x0 x1 x2 x3 x4 x5 : (⟨3, ![1, b, c]⟩ : Shape).Idx → α)
    (h : Shape.Concatenates (([⟨⟨3, ![1, b, c]⟩, x0⟩, ⟨⟨3, ![1, b, c]⟩, x1⟩, ⟨⟨3, ![1, b, c]⟩, x2⟩, ⟨⟨3, ![1, b, c]⟩, x3⟩, ⟨⟨3, ![1, b, c]⟩, x4⟩, ⟨⟨3, ![1, b, c]⟩, x5⟩] : List ((s : Shape) × (s.Idx → α))).map (·.1)) ⟨3, ![6, b, c]⟩ 0)
    (hk : 3 < 6) (j : Fin b) (n : Fin c) :
    concatenate ⟨3, ![6, b, c]⟩ 0 [⟨⟨3, ![1, b, c]⟩, x0⟩, ⟨⟨3, ![1, b, c]⟩, x1⟩, ⟨⟨3, ![1, b, c]⟩, x2⟩, ⟨⟨3, ![1, b, c]⟩, x3⟩, ⟨⟨3, ![1, b, c]⟩, x4⟩, ⟨⟨3, ![1, b, c]⟩, x5⟩] h (ix3 (⟨3, hk⟩ : Fin 6) j n) = x3 (ix3 (0 : Fin 1) j n) :=
  concatenate_apply_piece 0 _ h _ 3 (by show 3 < 6; omega) ⟨3, ![1, b, c]⟩ x3 rfl rfl 3 rfl (ix3 (0 : Fin 1) j n)
    (fun d hd => match d, hd with
      | ⟨0, _⟩, hd => absurd rfl hd
      | ⟨1, _⟩, _ => rfl
      | ⟨2, _⟩, _ => rfl) rfl

/-- Six `[1, b, c]` slabs piled along the leading axis read, at `(4, j, n)`, slab 4 at `(0, j, n)`. -/
theorem stack6_at4 {b c : ℕ} (x0 x1 x2 x3 x4 x5 : (⟨3, ![1, b, c]⟩ : Shape).Idx → α)
    (h : Shape.Concatenates (([⟨⟨3, ![1, b, c]⟩, x0⟩, ⟨⟨3, ![1, b, c]⟩, x1⟩, ⟨⟨3, ![1, b, c]⟩, x2⟩, ⟨⟨3, ![1, b, c]⟩, x3⟩, ⟨⟨3, ![1, b, c]⟩, x4⟩, ⟨⟨3, ![1, b, c]⟩, x5⟩] : List ((s : Shape) × (s.Idx → α))).map (·.1)) ⟨3, ![6, b, c]⟩ 0)
    (hk : 4 < 6) (j : Fin b) (n : Fin c) :
    concatenate ⟨3, ![6, b, c]⟩ 0 [⟨⟨3, ![1, b, c]⟩, x0⟩, ⟨⟨3, ![1, b, c]⟩, x1⟩, ⟨⟨3, ![1, b, c]⟩, x2⟩, ⟨⟨3, ![1, b, c]⟩, x3⟩, ⟨⟨3, ![1, b, c]⟩, x4⟩, ⟨⟨3, ![1, b, c]⟩, x5⟩] h (ix3 (⟨4, hk⟩ : Fin 6) j n) = x4 (ix3 (0 : Fin 1) j n) :=
  concatenate_apply_piece 0 _ h _ 4 (by show 4 < 6; omega) ⟨3, ![1, b, c]⟩ x4 rfl rfl 4 rfl (ix3 (0 : Fin 1) j n)
    (fun d hd => match d, hd with
      | ⟨0, _⟩, hd => absurd rfl hd
      | ⟨1, _⟩, _ => rfl
      | ⟨2, _⟩, _ => rfl) rfl

/-- Six `[1, b, c]` slabs piled along the leading axis read, at `(5, j, n)`, slab 5 at `(0, j, n)`. -/
theorem stack6_at5 {b c : ℕ} (x0 x1 x2 x3 x4 x5 : (⟨3, ![1, b, c]⟩ : Shape).Idx → α)
    (h : Shape.Concatenates (([⟨⟨3, ![1, b, c]⟩, x0⟩, ⟨⟨3, ![1, b, c]⟩, x1⟩, ⟨⟨3, ![1, b, c]⟩, x2⟩, ⟨⟨3, ![1, b, c]⟩, x3⟩, ⟨⟨3, ![1, b, c]⟩, x4⟩, ⟨⟨3, ![1, b, c]⟩, x5⟩] : List ((s : Shape) × (s.Idx → α))).map (·.1)) ⟨3, ![6, b, c]⟩ 0)
    (hk : 5 < 6) (j : Fin b) (n : Fin c) :
    concatenate ⟨3, ![6, b, c]⟩ 0 [⟨⟨3, ![1, b, c]⟩, x0⟩, ⟨⟨3, ![1, b, c]⟩, x1⟩, ⟨⟨3, ![1, b, c]⟩, x2⟩, ⟨⟨3, ![1, b, c]⟩, x3⟩, ⟨⟨3, ![1, b, c]⟩, x4⟩, ⟨⟨3, ![1, b, c]⟩, x5⟩] h (ix3 (⟨5, hk⟩ : Fin 6) j n) = x5 (ix3 (0 : Fin 1) j n) :=
  concatenate_apply_piece 0 _ h _ 5 (by show 5 < 6; omega) ⟨3, ![1, b, c]⟩ x5 rfl rfl 5 rfl (ix3 (0 : Fin 1) j n)
    (fun d hd => match d, hd with
      | ⟨0, _⟩, hd => absurd rfl hd
      | ⟨1, _⟩, _ => rfl
      | ⟨2, _⟩, _ => rfl) rfl

end Cert.LibSlabs
-- ==== Proof.LibFlatten.lean ====
/-
  Rank-3 layout facts read at one index, for any extents and any entries.

  Folding the two leading axes of an [a, b, c] array into one axis of a·b rows (and unfolding it again) keeps every entry:
  row p·b + q of the folded array is the pair (p, q). The three rotations of a rank-3 array's axes that are not already
  in the library move the entry at (p, q, r) to (q, r, p), to (q, p, r) and to (r, p, q). A trailing unit axis added to a
  matrix, and a trailing unit axis spread over c entries, read the matrix entry. A sum over the last of three axes
  reads, at (p, q), the sum of the c entries (p, q, ·).
-/
import Idealize.ShloMosaic.Lib.Pipeline.Value
import Idealize.ShloMosaic.Lib.ValueIdx
import Idealize.ShloMosaic.PureOps.Ideal.Laws

open scoped BigOperators

namespace Cert.LibFlatten

open Idealize.ShloMosaic Idealize.ShloMosaic.ValueIdx

variable {α : Type}

/-- An `[a, b, c]` array with its two leading axes folded into `n` rows reads, at row `j = p·b + q` and column `r`,
    the operand at `(p, q, r)`. -/
theorem fold_abc_apply {a b c n : ℕ} (x : (⟨3, ![a, b, c]⟩ : Shape).Idx → α)
    (h : (⟨3, ![a, b, c]⟩ : Shape).ShapeCasts ⟨2, ![n, c]⟩) (p : Fin a) (q : Fin b) (r : Fin c) (j : Fin n)
    (hj : j.val = p.val * b + q.val) : shapeCast ⟨2, ![n, c]⟩ x h (ix2 j r) = x (ix3 p q r) :=
  shapeCast_apply x h _ _ (by
    rw [Shape.rowMajor_val_three, Shape.rowMajor_val_two]
    show (p.val * b + q.val) * c + r.val = j.val * c + r.val
    rw [hj])

/-- An `[n, c]` array with its rows unfolded into `[a, b]` reads, at `(p, q, r)`, the operand at row `j = p·b + q`. -/
theorem unfold_abc_apply {a b c n : ℕ} (x : (⟨2, ![n, c]⟩ : Shape).Idx → α)
    (h : (⟨2, ![n, c]⟩ : Shape).ShapeCasts ⟨3, ![a, b, c]⟩) (p : Fin a) (q : Fin b) (r : Fin c) (j : Fin n)
    (hj : j.val = p.val * b + q.val) : shapeCast ⟨3, ![a, b, c]⟩ x h (ix3 p q r) = x (ix2 j r) :=
  shapeCast_apply x h _ _ (by
    rw [Shape.rowMajor_val_three, Shape.rowMajor_val_two]
    show j.val * c + r.val = (p.val * b + q.val) * c + r.val
    rw [hj])

/-- The rotation `[1, 2, 0]` of an `[a, b, c]` array reads, at `(q, r, p)`, the operand at `(p, q, r)`. -/
theorem rot120_apply {a b c : ℕ} (x : (⟨3, ![a, b, c]⟩ : Shape).Idx → α)
    (h : (⟨3, ![a, b, c]⟩ : Shape).Transposes [1, 2, 0] ⟨3, ![b, c, a]⟩) (p : Fin a) (q : Fin b) (r : Fin c) :
    transpose ⟨3, ![b, c, a]⟩ [1, 2, 0] x h (ix3 q r p) = x (ix3 p q r) :=
  transpose_apply _ x h _ _ fun d => match d with | ⟨0, _⟩ => rfl | ⟨1, _⟩ => rfl | ⟨2, _⟩ => rfl

/-- The swap `[1, 0, 2]` of the two leading axes of an `[a, b, c]` array reads, at `(q, p, r)`, the operand at `(p, q, r)`. -/
theorem swap102_apply {a b c : ℕ} (x : (⟨3, ![a, b, c]⟩ : Shape).Idx → α)
    (h : (⟨3, ![a, b, c]⟩ : Shape).Transposes [1, 0, 2] ⟨3, ![b, a, c]⟩) (p : Fin a) (q : Fin b) (r : Fin c) :
    transpose ⟨3, ![b, a, c]⟩ [1, 0, 2] x h (ix3 q p r) = x (ix3 p q r) :=
  transpose_apply _ x h _ _ fun d => match d with | ⟨0, _⟩ => rfl | ⟨1, _⟩ => rfl | ⟨2, _⟩ => rfl

/-- The rotation `[2, 0, 1]` of an `[a, b, c]` array reads, at `(r, p, q)`, the operand at `(p, q, r)`. -/
theorem rot201_apply {a b c : ℕ} (x : (⟨3, ![a, b, c]⟩ : Shape).Idx → α)
    (h : (⟨3, ![a, b, c]⟩ : Shape).Transposes [2, 0, 1] ⟨3, ![c, a, b]⟩) (p : Fin a) (q : Fin b) (r : Fin c) :
    transpose ⟨3, ![c, a, b]⟩ [2, 0, 1] x h (ix3 r p q) = x (ix3 p q r) :=
  transpose_apply _ x h _ _ fun d => match d with | ⟨0, _⟩ => rfl | ⟨1, _⟩ => rfl | ⟨2, _⟩ => rfl

/-- An `[a, b]` array given a trailing unit axis reads, at `(p, q, u)`, the operand at `(p, q)`. -/
theorem cast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array spread over `c` entries of its last axis reads, at `(p, q, r)`, the operand at `(p, q, 0)`. -/
theorem spread_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A sum over the last of three axes: the `add` reduction of an `[a, b, c]` array over axis 2 reads, at `(p, q)`, the
    sum of the `c` entries `(p, q, ·)` (the accumulator is the sum's neutral element, so it contributes nothing). -/
theorem sumLast3_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  show ∑ k : Fin c, src (h.lift (ix2 p q) k) = _
  refine Finset.sum_congr rfl fun k _ => congrArg src ?_
  funext d; apply Fin.ext
  match d with
  | ⟨0, _⟩ => rfl
  | ⟨1, _⟩ => rfl
  | ⟨2, _⟩ => rfl

end Cert.LibFlatten
-- ==== Proof.Spec.lean ====
/-
  The function both programs compute: the fourth power of each 6-by-6 matrix of a pile, by two squarings.

  For a 6-by-6 matrix M over the extended reals, the square is taken entry by entry as the sum over k of
  M k j * M i k (each product written with the entry of column j first: multiplication of extended reals commutes, so
  this is the usual (M M) i j). The fourth power is the square of the square. The pile [2000000, 6, 6] is handled one
  matrix at a time.
-/
import Idealize.ShloMosaic.PureOps.Ideal
import Idealize.ShloMosaic.Lib.ValueIdx

noncomputable section

open scoped BigOperators

namespace Cert.MatPow

open Idealize.ShloMosaic Idealize.ShloMosaic.ValueIdx

/-- The square of a 6-by-6 matrix of extended reals: entry `(i, j)` is the sum over `k` of `M k j * M i k`. -/
def msq (M : Fin 6 → Fin 6 → EReal) : Fin 6 → Fin 6 → EReal := fun i j => ∑ k : Fin 6, M k j * M i k

/-- The fourth power, as the square of the square. -/
def pow4 (M : Fin 6 → Fin 6 → EReal) : Fin 6 → Fin 6 → EReal := msq (msq M)

/-- Matrix `b` of a pile `[N, 6, 6]`. -/
def mat {N : ℕ} (X : (⟨3, ![N, 6, 6]⟩ : Shape).Idx → EReal) (b : Fin N) : Fin 6 → Fin 6 → EReal :=
  fun p q => X (ix3 b p q)

/-- The whole result: entry `(b, i, j)` is entry `(i, j)` of the fourth power of matrix `b`. -/
def G {N : ℕ} (X : (⟨3, ![N, 6, 6]⟩ : Shape).Idx → EReal) : (⟨3, ![N, 6, 6]⟩ : Shape).Idx → EReal :=
  fun i => pow4 (mat X (i 0)) (i 1) (i 2)

theorem G_apply {N : ℕ} (X : (⟨3, ![N, 6, 6]⟩ : Shape).Idx → EReal) (b : Fin N) (i j : Fin 6) :
    G X (ix3 b i j) = pow4 (mat X b) i j := rfl

end Cert.MatPow

end
-- ==== Proof.Body.lean ====
/-
  What one grid step leaves in its output block, read at one entry.

  A block is 8000 rows of 36 numbers: row n is one 6-by-6 matrix, entry (p, q) at column p·6 + q. The body turns the
  block on its side, so that entry (p, q) of all 8000 matrices is one lane vector of a [6, 6, 8000] tile, squares the
  tile twice, and turns the result back. One squaring builds row i of the square as the running sum, over k = 0 … 5, of
  (slab k of the tile) times (the lane vector at (i, k)) spread over the six rows of the slab — so its entry (i, j) on
  lane n is the sum over k of tile (k, j, n) * tile (i, k, n) — and piles the six rows along the leading axis.
  Read at row n and column i·6 + j, the block the body leaves is therefore entry (i, j) of the fourth power of the
  matrix in row n of the block it was given.
-/
import proofs.«103735_j48137993454056_2_alg».proof.Proof.Gen.KernelIdeal.Frame
import proofs.«103735_j48137993454056_2_alg».proof.Proof.LibSlabs
import proofs.«103735_j48137993454056_2_alg».proof.Proof.LibFlatten
import proofs.«103735_j48137993454056_2_alg».proof.Proof.Spec
import Idealize.ShloMosaic.Lib.ValueLayout

set_option maxRecDepth 16384

noncomputable section

open scoped BigOperators

namespace Cert.KernelIdeal.Body

open Idealize.ShloMosaic Idealize.ShloMosaic.ValueIdx Cert.KernelIdeal Cert.KernelIdeal.Gen Cert.LibSlabs Cert.LibFlatten
open Cert.MatPow

variable {α : Type}

/-! ## Thirty-six rows folded from, and unfolded into, six by six -/

/-- A `[36, c]` array with its rows unfolded into `[6, 6]` reads, at `(p, q, n)`, the operand at row `p·6 + q`. -/
theorem unfold66_apply {c : ℕ} (x : (⟨2, ![36, c]⟩ : Shape).Idx → α)
    (h : (⟨2, ![36, c]⟩ : Shape).ShapeCasts ⟨3, ![6, 6, c]⟩) (p q : Fin 6) (n : Fin c) :
    shapeCast ⟨3, ![6, 6, c]⟩ x h (ix3 p q n) = x (ix2 (⟨p.val * 6 + q.val, by omega⟩ : Fin 36) n) :=
  unfold_abc_apply x h p q n _ rfl

/-- A `[6, 6, c]` array with its two leading axes folded into 36 rows reads, at row `p·6 + q`, the operand at
    `(p, q, n)`. -/
theorem fold66_apply {c : ℕ} (x : (⟨3, ![6, 6, c]⟩ : Shape).Idx → α)
    (h : (⟨3, ![6, 6, c]⟩ : Shape).ShapeCasts ⟨2, ![36, c]⟩) (p q : Fin 6) (n : Fin c) (hc : p.val * 6 + q.val < 36) :
    shapeCast ⟨2, ![36, c]⟩ x h (ix2 (⟨p.val * 6 + q.val, hc⟩ : Fin 36) n) = x (ix3 p q n) :=
  fold_abc_apply x h p q n _ rfl

/-! ## The tile -/

/-- The tile: entry `(p, q)` of the matrix in row `n` of the block, on lane `n`. -/
theorem tile_apply (x0 : Vec Ideal S8000x36 .f32) (p q : Fin 6) (n : Fin 8000) :
    k0_pay1 (F := Ideal) x0 (ix3 p q n) = x0 (ix2 n (⟨p.val * 6 + q.val, by omega⟩ : Fin 36)) := by
  unfold k0_pay1
  simp only [unfold66_apply, shapeCast_self]
  exact transpose_ix2_apply x0 _ _ n

/-! ## The first squaring -/

/-- The square of the tile, as the body builds it from the block `x0`: six rows, each a running sum of six products,
    piled along the leading axis. -/
def sq1 {F : FTy → Type} [FloatOps F] (x0 : Vec F S8000x36 .f32) : FVec F S6x6x8000 .f32 :=
  k0_pay16 (k0_pay1 x0) (k0_pay2 x0) (k0_pay5 (k0_pay1 x0) (k0_pay3 x0) (k0_pay4 x0)) (k0_pay9 (k0_pay1 x0) (k0_pay6 (k0_pay1 x0)) (k0_pay7 (k0_pay1 x0)) (k0_pay8 (k0_pay1 x0))) (k0_pay12 (k0_pay1 x0) (k0_pay10 (k0_pay1 x0)) (k0_pay11 (k0_pay1 x0))) (k0_pay13 (k0_pay1 x0)) (k0_pay14 (k0_pay1 x0)) (k0_pay15 (k0_pay1 x0))

/-- The lane vector at `(0, 0)` of the square, as the body cuts it out for the second squaring. -/
def sq1_w {F : FTy → Type} [FloatOps F] (x0 : Vec F S8000x36 .f32) : FVec F S8000 .f32 :=
  k0_pay17 (k0_pay1 x0) (k0_pay2 x0) (k0_pay5 (k0_pay1 x0) (k0_pay3 x0) (k0_pay4 x0)) (k0_pay9 (k0_pay1 x0) (k0_pay6 (k0_pay1 x0)) (k0_pay7 (k0_pay1 x0)) (k0_pay8 (k0_pay1 x0))) (k0_pay12 (k0_pay1 x0) (k0_pay10 (k0_pay1 x0)) (k0_pay11 (k0_pay1 x0))) (k0_pay13 (k0_pay1 x0)) (k0_pay14 (k0_pay1 x0)) (k0_pay15 (k0_pay1 x0))

/-- Slab 0 of the square, as the body cuts it out for the second squaring. -/
def sq1_s {F : FTy → Type} [FloatOps F] (x0 : Vec F S8000x36 .f32) : FVec F S6x8000 .f32 :=
  k0_pay18 (k0_pay1 x0) (k0_pay2 x0) (k0_pay5 (k0_pay1 x0) (k0_pay3 x0) (k0_pay4 x0)) (k0_pay9 (k0_pay1 x0) (k0_pay6 (k0_pay1 x0)) (k0_pay7 (k0_pay1 x0)) (k0_pay8 (k0_pay1 x0))) (k0_pay12 (k0_pay1 x0) (k0_pay10 (k0_pay1 x0)) (k0_pay11 (k0_pay1 x0))) (k0_pay13 (k0_pay1 x0)) (k0_pay14 (k0_pay1 x0)) (k0_pay15 (k0_pay1 x0))

/-- Entry `(i, j)` of the first square on lane `n` is entry `(i, j)` of the square of the matrix the tile holds on
    that lane. -/
theorem sq1_apply (x0 : Vec Ideal S8000x36 .f32) (i j : Fin 6) (n : Fin 8000) :
    sq1 (F := Ideal) x0 (ix3 i j n) = msq (fun p q => k0_pay1 (F := Ideal) x0 (ix3 p q n)) i j := by
  unfold sq1
  match i with
  | ⟨0, _⟩ =>
    simp only [k0_pay16, k0_pay2, k0_pay3, k0_pay4, k0_pay5, k0_pay6, k0_pay7, k0_pay8, k0_pay9, k0_pay10, k0_pay11, k0_pay12, k0_pay13, k0_pay14, k0_pay15, stack6_at0, addf_apply, mulf_apply, shapeCast_1ab_ab_apply, shapeCast_ab_1ab_apply, broadcastTo_1b_ab_apply, shapeCast_a_1a_apply, cast_11c_c_apply, cell_apply, slab_apply, msq, Fin.sum_univ_six]
    rfl
  | ⟨1, _⟩ =>
    simp only [k0_pay16, k0_pay2, k0_pay3, k0_pay4, k0_pay5, k0_pay6, k0_pay7, k0_pay8, k0_pay9, k0_pay10, k0_pay11, k0_pay12, k0_pay13, k0_pay14, k0_pay15, stack6_at1, addf_apply, mulf_apply, shapeCast_1ab_ab_apply, shapeCast_ab_1ab_apply, broadcastTo_1b_ab_apply, shapeCast_a_1a_apply, cast_11c_c_apply, cell_apply, slab_apply, msq, Fin.sum_univ_six]
    rfl
  | ⟨2, _⟩ =>
    simp only [k0_pay16, k0_pay2, k0_pay3, k0_pay4, k0_pay5, k0_pay6, k0_pay7, k0_pay8, k0_pay9, k0_pay10, k0_pay11, k0_pay12, k0_pay13, k0_pay14, k0_pay15, stack6_at2, addf_apply, mulf_apply, shapeCast_1ab_ab_apply, shapeCast_ab_1ab_apply, broadcastTo_1b_ab_apply, shapeCast_a_1a_apply, cast_11c_c_apply, cell_apply, slab_apply, msq, Fin.sum_univ_six]
    rfl
  | ⟨3, _⟩ =>
    simp only [k0_pay16, k0_pay2, k0_pay3, k0_pay4, k0_pay5, k0_pay6, k0_pay7, k0_pay8, k0_pay9, k0_pay10, k0_pay11, k0_pay12, k0_pay13, k0_pay14, k0_pay15, stack6_at3, addf_apply, mulf_apply, shapeCast_1ab_ab_apply, shapeCast_ab_1ab_apply, broadcastTo_1b_ab_apply, shapeCast_a_1a_apply, cast_11c_c_apply, cell_apply, slab_apply, msq, Fin.sum_univ_six]
    rfl
  | ⟨4, _⟩ =>
    simp only [k0_pay16, k0_pay2, k0_pay3, k0_pay4, k0_pay5, k0_pay6, k0_pay7, k0_pay8, k0_pay9, k0_pay10, k0_pay11, k0_pay12, k0_pay13, k0_pay14, k0_pay15, stack6_at4, addf_apply, mulf_apply, shapeCast_1ab_ab_apply, shapeCast_ab_1ab_apply, broadcastTo_1b_ab_apply, shapeCast_a_1a_apply, cast_11c_c_apply, cell_apply, slab_apply, msq, Fin.sum_univ_six]
    rfl
  | ⟨5, _⟩ =>
    simp only [k0_pay16, k0_pay2, k0_pay3, k0_pay4, k0_pay5, k0_pay6, k0_pay7, k0_pay8, k0_pay9, k0_pay10, k0_pay11, k0_pay12, k0_pay13, k0_pay14, k0_pay15, stack6_at5, addf_apply, mulf_apply, shapeCast_1ab_ab_apply, shapeCast_ab_1ab_apply, broadcastTo_1b_ab_apply, shapeCast_a_1a_apply, cast_11c_c_apply, cell_apply, slab_apply, msq, Fin.sum_univ_six]
    rfl

/-- The two pieces of the first square that the body cuts out ahead of the second squaring are entries of it. -/
theorem sq1_w_apply (x0 : Vec Ideal S8000x36 .f32) (n : Fin 8000) :
    sq1_w (F := Ideal) x0 (ix1 n) = sq1 (F := Ideal) x0 (ix3 (0 : Fin 6) (0 : Fin 6) n) := by
  unfold sq1_w sq1 k0_pay17
  simp only [cast_11c_c_apply, cell_apply]
  rfl

theorem sq1_s_apply (x0 : Vec Ideal S8000x36 .f32) (j : Fin 6) (n : Fin 8000) :
    sq1_s (F := Ideal) x0 (ix2 j n) = sq1 (F := Ideal) x0 (ix3 (0 : Fin 6) j n) := by
  unfold sq1_s sq1 k0_pay18
  simp only [shapeCast_1ab_ab_apply, slab_apply]
  rfl

/-! ## The second squaring, turned back into a block -/

/-- The second squaring of a tile `t` (with its lane vector `w` at `(0, 0)` and its slab `s` at 0 handed in, as the
    body has them), folded to 36 rows and turned back to 8000 rows of 36. -/
def sq2 {F : FTy → Type} [FloatOps F] (t : FVec F S6x6x8000 .f32) (w : FVec F S8000 .f32) (s : FVec F S6x8000 .f32) :
    FVec F S8000x36 .f32 :=
  k0_pay33 t (k0_pay19 t w s) (k0_pay22 t (k0_pay20 t) (k0_pay21 t)) (k0_pay25 t (k0_pay23 t) (k0_pay24 t)) (k0_pay29 (k0_pay26 t) (k0_pay27 t) (k0_pay28 t)) (k0_pay30 t) (k0_pay31 t) (k0_pay32 t)

/-- Row `n`, column `i·6 + j` of the block the second squaring leaves is entry `(i, j)` of the square of the matrix the
    tile holds on lane `n`. -/
theorem sq2_apply (t : FVec Ideal S6x6x8000 .f32) (w : FVec Ideal S8000 .f32) (s : FVec Ideal S6x8000 .f32)
    (hw : ∀ n, w (ix1 n) = t (ix3 (0 : Fin 6) (0 : Fin 6) n)) (hs : ∀ j n, s (ix2 j n) = t (ix3 (0 : Fin 6) j n))
    (i j : Fin 6) (n : Fin 8000) (hc : i.val * 6 + j.val < 36) :
    sq2 (F := Ideal) t w s (ix2 n (⟨i.val * 6 + j.val, hc⟩ : Fin 36)) = msq (fun p q => t (ix3 p q n)) i j := by
  unfold sq2 k0_pay33
  dsimp only
  refine (transpose_ix2_apply _ _ n _).trans ?_
  rw [fold66_apply]
  match i with
  | ⟨0, _⟩ =>
    simp only [k0_pay19, k0_pay20, k0_pay21, k0_pay22, k0_pay23, k0_pay24, k0_pay25, k0_pay26, k0_pay27, k0_pay28, k0_pay29, k0_pay30, k0_pay31, k0_pay32, stack6_at0, addf_apply, mulf_apply, shapeCast_1ab_ab_apply, shapeCast_ab_1ab_apply, broadcastTo_1b_ab_apply, shapeCast_a_1a_apply, cast_11c_c_apply, cell_apply, slab_apply, hw, hs, msq, Fin.sum_univ_six]
    rfl
  | ⟨1, _⟩ =>
    simp only [k0_pay19, k0_pay20, k0_pay21, k0_pay22, k0_pay23, k0_pay24, k0_pay25, k0_pay26, k0_pay27, k0_pay28, k0_pay29, k0_pay30, k0_pay31, k0_pay32, stack6_at1, addf_apply, mulf_apply, shapeCast_1ab_ab_apply, shapeCast_ab_1ab_apply, broadcastTo_1b_ab_apply, shapeCast_a_1a_apply, cast_11c_c_apply, cell_apply, slab_apply, hw, hs, msq, Fin.sum_univ_six]
    rfl
  | ⟨2, _⟩ =>
    simp only [k0_pay19, k0_pay20, k0_pay21, k0_pay22, k0_pay23, k0_pay24, k0_pay25, k0_pay26, k0_pay27, k0_pay28, k0_pay29, k0_pay30, k0_pay31, k0_pay32, stack6_at2, addf_apply, mulf_apply, shapeCast_1ab_ab_apply, shapeCast_ab_1ab_apply, broadcastTo_1b_ab_apply, shapeCast_a_1a_apply, cast_11c_c_apply, cell_apply, slab_apply, hw, hs, msq, Fin.sum_univ_six]
    rfl
  | ⟨3, _⟩ =>
    simp only [k0_pay19, k0_pay20, k0_pay21, k0_pay22, k0_pay23, k0_pay24, k0_pay25, k0_pay26, k0_pay27, k0_pay28, k0_pay29, k0_pay30, k0_pay31, k0_pay32, stack6_at3, addf_apply, mulf_apply, shapeCast_1ab_ab_apply, shapeCast_ab_1ab_apply, broadcastTo_1b_ab_apply, shapeCast_a_1a_apply, cast_11c_c_apply, cell_apply, slab_apply, hw, hs, msq, Fin.sum_univ_six]
    rfl
  | ⟨4, _⟩ =>
    simp only [k0_pay19, k0_pay20, k0_pay21, k0_pay22, k0_pay23, k0_pay24, k0_pay25, k0_pay26, k0_pay27, k0_pay28, k0_pay29, k0_pay30, k0_pay31, k0_pay32, stack6_at4, addf_apply, mulf_apply, shapeCast_1ab_ab_apply, shapeCast_ab_1ab_apply, broadcastTo_1b_ab_apply, shapeCast_a_1a_apply, cast_11c_c_apply, cell_apply, slab_apply, hw, hs, msq, Fin.sum_univ_six]
    rfl
  | ⟨5, _⟩ =>
    simp only [k0_pay19, k0_pay20, k0_pay21, k0_pay22, k0_pay23, k0_pay24, k0_pay25, k0_pay26, k0_pay27, k0_pay28, k0_pay29, k0_pay30, k0_pay31, k0_pay32, stack6_at5, addf_apply, mulf_apply, shapeCast_1ab_ab_apply, shapeCast_ab_1ab_apply, broadcastTo_1b_ab_apply, shapeCast_a_1a_apply, cast_11c_c_apply, cell_apply, slab_apply, hw, hs, msq, Fin.sum_univ_six]
    rfl

/-! ## The block function -/

/-- What the body leaves in the output block, as a function of the input block. -/
def blockFn {F : FTy → Type} [FloatOps F] (x0 : Vec F S8000x36 .f32) : FVec F S8000x36 .f32 :=
  sq2 (sq1 x0) (sq1_w x0) (sq1_s x0)

/-- The output buffer after the body is the block function of the block loaded. -/
theorem out0_1_eq {F : FTy → Type} [FloatOps F] (x0 : Vec F S8000x36 .f32) :
    out0_1 (F := F) x0 = View.canon [⟨r0_0, blockFn (View.ld x0 r0_0)⟩] := rfl

/-- The matrix in row `n` of a block: entry `(p, q)` at column `p·6 + q`. -/
def rowMat (x0 : Vec Ideal S8000x36 .f32) (n : Fin 8000) : Fin 6 → Fin 6 → EReal :=
  fun p q => x0 (ix2 n (⟨p.val * 6 + q.val, by omega⟩ : Fin 36))

/-- Row `n`, column `i·6 + j` of the block function is entry `(i, j)` of the fourth power of the matrix in row `n`. -/
theorem blockFn_apply (x0 : Vec Ideal S8000x36 .f32) (i j : Fin 6) (n : Fin 8000) (hc : i.val * 6 + j.val < 36) :
    blockFn (F := Ideal) x0 (ix2 n (⟨i.val * 6 + j.val, hc⟩ : Fin 36)) = pow4 (rowMat x0 n) i j := by
  unfold blockFn
  refine (sq2_apply _ _ _ (sq1_w_apply x0) (sq1_s_apply x0) i j n hc).trans ?_
  unfold pow4
  refine congrArg (fun M => msq M i j) (funext fun p => funext fun q => ?_)
  refine (sq1_apply x0 p q n).trans ?_
  refine congrArg (fun M => msq M p q) (funext fun p' => funext fun q' => ?_)
  exact tile_apply x0 p' q' n

end Cert.KernelIdeal.Body

end
-- ==== Proof.Flat.lean ====
/-
  From one block to the whole array.

  The flat array has 2000000 rows of 36 numbers, row r holding matrix r with entry (p, q) at column p·6 + q; the
  pile [2000000, 6, 6] is the same numbers with each row split six by six. The flat result holds, at row r and
  column c, entry (c / 6, c % 6) of the fourth power of the matrix in row r. A block is 8000 consecutive rows, and the
  body maps a block of the flat argument to the same block of the flat result; splitting the rows of the flat result
  gives the fourth powers of the pile's matrices.
-/
import proofs.«103735_j48137993454056_2_alg».proof.Proof.Body

set_option maxRecDepth 16384

noncomputable section

open scoped BigOperators

namespace Cert.KernelIdeal.Flat

open Idealize.ShloMosaic Idealize.ShloMosaic.ValueIdx Cert.KernelIdeal Cert.KernelIdeal.Gen Cert.KernelIdeal.Body
open Cert.MatPow

variable {α : Type}

/-! ## Rows of 36 split six by six, and merged again -/

/-- An `[a, 36]` array with each row split into `[6, 6]` reads, at `(b, p, q)`, the operand at row `b`, column
    `p·6 + q`. -/
theorem split36_apply {a : ℕ} (x : (⟨2, ![a, 36]⟩ : Shape).Idx → α)
    (h : (⟨2, ![a, 36]⟩ : Shape).ShapeCasts ⟨3, ![a, 6, 6]⟩) (b : Fin a) (p q : Fin 6) :
    shapeCast ⟨3, ![a, 6, 6]⟩ x h (ix3 b p q) = x (ix2 b (⟨p.val * 6 + q.val, by omega⟩ : Fin 36)) :=
  shapeCast_apply x h _ _ (by
    rw [Shape.rowMajor_val_three, Shape.rowMajor_val_two]
    show b.val * 36 + (p.val * 6 + q.val) = (b.val * 6 + p.val) * 6 + q.val
    omega)

/-- An `[a, 6, 6]` array with each matrix merged into a row of 36 reads, at row `b`, column `p·6 + q`, the operand at
    `(b, p, q)`. -/
theorem merge36_apply {a : ℕ} (x : (⟨3, ![a, 6, 6]⟩ : Shape).Idx → α)
    (h : (⟨3, ![a, 6, 6]⟩ : Shape).ShapeCasts ⟨2, ![a, 36]⟩) (b : Fin a) (p q : Fin 6) (hc : p.val * 6 + q.val < 36) :
    shapeCast ⟨2, ![a, 36]⟩ x h (ix2 b (⟨p.val * 6 + q.val, hc⟩ : Fin 36)) = x (ix3 b p q) :=
  shapeCast_apply x h _ _ (by
    rw [Shape.rowMajor_val_three, Shape.rowMajor_val_two]
    show (b.val * 6 + p.val) * 6 + q.val = b.val * 36 + (p.val * 6 + q.val)
    omega)

/-! ## The flat result -/

/-- The matrix in row `r` of a flat array: entry `(p, q)` at column `p·6 + q`. -/
def flatMat {N : ℕ} (X : (⟨2, ![N, 36]⟩ : Shape).Idx → EReal) (r : Fin N) : Fin 6 → Fin 6 → EReal :=
  fun p q => X (ix2 r (⟨p.val * 6 + q.val, by omega⟩ : Fin 36))

/-- The flat result: at row `r`, column `c`, entry `(c / 6, c % 6)` of the fourth power of the matrix in row `r`. -/
def flat {N : ℕ} (X : (⟨2, ![N, 36]⟩ : Shape).Idx → EReal) : (⟨2, ![N, 36]⟩ : Shape).Idx → EReal :=
  fun i => pow4 (flatMat X (i 0)) (⟨(i 1).val / 6, by have := idx2_lt1 i; omega⟩ : Fin 6)
    (⟨(i 1).val % 6, Nat.mod_lt _ (by omega)⟩ : Fin 6)

/-- The flat result at a column written `p·6 + q`. -/
theorem flat_apply {N : ℕ} (X : (⟨2, ![N, 36]⟩ : Shape).Idx → EReal) (r : Fin N) (p q : Fin 6)
    (hc : p.val * 6 + q.val < 36) :
    flat X (ix2 r (⟨p.val * 6 + q.val, hc⟩ : Fin 36)) = pow4 (flatMat X r) p q := by
  unfold flat
  have hp : (⟨(p.val * 6 + q.val) / 6, by omega⟩ : Fin 6) = p := Fin.ext (by show (p.val * 6 + q.val) / 6 = p.val; omega)
  have hq : (⟨(p.val * 6 + q.val) % 6, Nat.mod_lt _ (by omega)⟩ : Fin 6) = q :=
    Fin.ext (by show (p.val * 6 + q.val) % 6 = q.val; omega)
  show pow4 (flatMat X r) (⟨(p.val * 6 + q.val) / 6, _⟩ : Fin 6) (⟨(p.val * 6 + q.val) % 6, _⟩ : Fin 6) = _
  rw [hp, hq]

/-! ## The block function on a block of the flat array -/

/-- The block function at any entry of the block: column `c` is entry `(c / 6, c % 6)` of the fourth power of the row's
    matrix. -/
theorem blockFn_at (x0 : Vec Ideal S8000x36 .f32) (y : S8000x36.Idx) :
    blockFn (F := Ideal) x0 y
      = pow4 (rowMat x0 (y 0)) (⟨(y 1).val / 6, by have := idx2_lt1 y; omega⟩ : Fin 6)
          (⟨(y 1).val % 6, Nat.mod_lt _ (by omega)⟩ : Fin 6) := by
  have h1 : (y 1).val < 36 := idx2_lt1 y
  have hy : y = ix2 (y 0) (⟨(⟨(y 1).val / 6, by omega⟩ : Fin 6).val * 6 + (⟨(y 1).val % 6, Nat.mod_lt _ (by omega)⟩ : Fin 6).val,
      by show (y 1).val / 6 * 6 + (y 1).val % 6 < 36; omega⟩ : Fin 36) := by
    refine (eq_ix2 y).trans ?_
    congr 1
    exact Fin.ext (by show (y 1).val = (y 1).val / 6 * 6 + (y 1).val % 6; omega)
  conv_lhs => rw [hy]
  exact blockFn_apply x0 _ _ (y 0) _

/-- If a block `x0` is the 8000 rows of the flat array `X` from row `base` on, the block function of `x0` is the same
    rows of the flat result of `X`. -/
theorem block_of_flat {N : ℕ} (X : (⟨2, ![N, 36]⟩ : Shape).Idx → EReal) (x0 : Vec Ideal S8000x36 .f32) (base : ℕ)
    (hb : base + 8000 ≤ N)
    (hx : ∀ (r : Fin 8000) (c : Fin 36), x0 (ix2 r c) = X (ix2 (⟨base + r.val, by omega⟩ : Fin N) c))
    (y : S8000x36.Idx) :
    blockFn (F := Ideal) x0 y = flat X (ix2 (⟨base + (y 0).val, by have := idx2_lt0 y; omega⟩ : Fin N) (y 1)) := by
  refine (blockFn_at x0 y).trans ?_
  unfold flat
  refine congrArg (fun M => pow4 M _ _) (funext fun p => funext fun q => ?_)
  exact hx (y 0) _

/-! ## The flat result, split six by six, is the pile's fourth powers -/

/-- Merging each matrix of a pile into a row, taking the flat result, and splitting the rows again gives, at
    `(b, i, j)`, entry `(i, j)` of the fourth power of matrix `b`. -/
theorem split_flat_merge {N : ℕ} (X : (⟨3, ![N, 6, 6]⟩ : Shape).Idx → EReal)
    (h1 : (⟨3, ![N, 6, 6]⟩ : Shape).ShapeCasts ⟨2, ![N, 36]⟩) (h2 : (⟨2, ![N, 36]⟩ : Shape).ShapeCasts ⟨3, ![N, 6, 6]⟩) :
    shapeCast ⟨3, ![N, 6, 6]⟩ (flat (shapeCast ⟨2, ![N, 36]⟩ X h1)) h2 = G X := by
  funext i
  obtain ⟨b, p, q, rfl⟩ : ∃ (b : Fin N) (p q : Fin 6), i = ix3 b p q := ⟨i 0, i 1, i 2, eq_ix3 i⟩
  rw [split36_apply, flat_apply, G_apply]
  refine congrArg (fun M => pow4 M p q) (funext fun p' => funext fun q' => ?_)
  exact merge36_apply X h1 b p' q' _

end Cert.KernelIdeal.Flat

end
-- ==== Proof.Whole.lean ====
/-
  The kernel's grid as a whole: the flat result it leaves.

  Before the grid the host merges each 6-by-6 matrix of the argument into a row of 36, giving the flat argument. Grid
  point t works on rows 8000·t … 8000·t + 7999: it loads that block of the flat argument and writes the block
  function of it to the same rows of the flat result. The 250 blocks tile the 2000000 rows, so after the grid the flat
  result holds, in every row, the fourth power of that row's matrix.
-/
import proofs.«103735_j48137993454056_2_alg».proof.Proof.Gen.KernelIdeal.Frame
import proofs.«103735_j48137993454056_2_alg».proof.Proof.Flat
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Body Cert.KernelIdeal.Flat Cert.MatPow

variable (m : (ℓ : Loc nD τ sig) → Buf (Elt Ideal) ℓ) (ρ : Dev nD → PrngReg)

theorem hz : (![0, 0] : Fin 2 → Nat) = fun _ => 0 := funext fun a => by fin_cases a <;> rfl

/-! ## The flat argument -/

/-- The flat argument as the grid finds it. -/
abbrev flatArg (c : Dev nD) : S2000000x36.Idx → EReal := V m c main_v0

/-- It is the host's merge of the pile. -/
theorem flatArg_eq (c : Dev nD) :
    flatArg m c = shapeCast S2000000x36 (m ((c : Thread nD τ).loc main_arg0)) shapeCasts_S2000000x6x6_S2000000x36 := by
  show StableHlo.after hostOps0 (fun b => m (c, b)) (Proc.devRef .tc main_v0) = _
  after_results
  rfl

/-! ## What a grid point writes back -/

/-- The printed index maps over the grid: both windows sit at block row `t`, block column 0. -/
theorem idx_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) < 250 :=
  (by decide +kernel : ∀ t : Fin grid0.N, _)

/-- Every block row is some point's. -/
theorem idx_onto : ∀ q : Fin 250, ∃ t : Fin cfg0.N, win0_1.index t = ![q.val, 0] :=
  (by decide +kernel : ∀ q : Fin 250, ∃ t : Fin grid0.N, win0_1.index t = ![q.val, 0])

/-- Point `t` writes back block `t` of the flat result of the flat argument. -/
theorem flushed1_eq (c : Dev nD) (t : Fin cfg0.N) :
    (dats m 0 c).flushed 1 t = ((cfg0.win 1).blk t).view.read (Elt Ideal) (flat (flatArg m c)) := by
  show (cfg0.win 1).cut (grid0.coords t) ((dats m 0 c).after 1 t) = _
  rw [after0_1, out0_1_eq, View.canon_unit_zero hz]
  simp only [View.ld_unit_zero (S := S8000x36) hz]
  obtain ⟨e0, e1, e2, e3⟩ := idx_facts t
  funext y
  show blockFn (iblk m c 0 t) y = flat (flatArg m c) (((cfg0.win 1).blk t).view.emb y)
  have hb : win0_1.index t (0 : Fin 2) * 8000 + 8000 ≤ 2000000 := by omega
  refine (block_of_flat (flatArg m c) (iblk m c 0 t) (win0_1.index t (0 : Fin 2) * 8000) hb ?_ y).trans ?_
  · intro r cc
    show flatArg m c (((cfg0.win 0).blk t).view.emb (ix2 r cc)) = flatArg m c (ix2 ⟨_, _⟩ cc)
    refine congrArg (flatArg m c) (funext fun a => Fin.ext ?_)
    match a with
    | ⟨0, _⟩ =>
      show win0_0.index t (0 : Fin 2) * 8000 + 1 * r.val = win0_1.index t (0 : Fin 2) * 8000 + r.val
      omega
    | ⟨1, _⟩ =>
      show win0_0.index t (1 : Fin 2) * 36 + 1 * cc.val = cc.val
      omega
  · refine congrArg (flat (flatArg m c)) (funext fun a => Fin.ext ?_)
    match a with
    | ⟨0, _⟩ =>
      show win0_1.index t (0 : Fin 2) * 8000 + (y 0).val = win0_1.index t (0 : Fin 2) * 8000 + 1 * (y 0).val
      omega
    | ⟨1, _⟩ =>
      show (y 1).val = win0_1.index t (1 : Fin 2) * 36 + 1 * (y 1).val
      omega

/-! ## The blocks tile the flat result -/

/-- An index of the flat result is in point `t`'s block iff each coordinate is in the block's range on its axis. -/
theorem mem_blk1 (t : Fin cfg0.N) (i : S2000000x36.Idx) :
    i ∈ ((cfg0.win 1).blk t).view.set ↔ ∀ a : Fin 2, win0_1.index t a * S8000x36.size a ≤ (i a).val
      ∧ (i a).val < win0_1.index t a * S8000x36.size a + S8000x36.size a := by
  show i ∈ ((View.whole main_v1).slice (win0_1.rect t)).set ↔ _
  rw [View.set_slice_whole, Rect.mem_set_unit]
  exact Iff.rfl

/-- Row `r` is in the block of the point at block row `r / 8000`. -/
theorem cover1 (i : S2000000x36.Idx) :
    ∃ t : Fin cfg0.N, (cfg0.win 1).flush t = true ∧ i ∈ ((cfg0.win 1).blk t).view.set := by
  have hi0 : (i 0).val < 2000000 := idx2_lt0 i
  have hi1 : (i 1).val < 36 := idx2_lt1 i
  obtain ⟨t, ht⟩ := idx_onto ⟨(i 0).val / 8000, by omega⟩
  have q0 : win0_1.index t (0 : Fin 2) = (i 0).val / 8000 := congrFun ht 0
  have q1 : win0_1.index t (1 : Fin 2) = 0 := congrFun ht 1
  refine ⟨t, flush0_1 t, ?_⟩
  rw [mem_blk1]
  intro a
  match a with
  | ⟨0, _⟩ =>
    show win0_1.index t (0 : Fin 2) * 8000 ≤ (i 0).val ∧ (i 0).val < win0_1.index t (0 : Fin 2) * 8000 + 8000
    omega
  | ⟨1, _⟩ =>
    show win0_1.index t (1 : Fin 2) * 36 ≤ (i 1).val ∧ (i 1).val < win0_1.index t (1 : Fin 2) * 36 + 36
    omega

/-- After the grid the flat result array holds the flat result of the flat argument. -/
theorem final1 (c : Dev nD) : (dats m 0 c).arrAt 1 cfg0.N = flat (flatArg m c) :=
  (dats m 0 c).arrAt_eq_of_cover 1 _ (fun t _ => flushed1_eq m c t) cover1

end Cert.KernelIdeal.Whole

end
-- ==== Proof.Run.lean ====
/-
  The kernel's program from start to end.

  After the grid the host splits every row of the flat result six by six. The flat result holds, in row r, the fourth
  power of the matrix the host merged into row r of the flat argument, so the split gives the fourth power of every
  matrix of the pile: the program's result is the function `G` of its argument, and the argument is left as it was.
-/
import proofs.«103735_j48137993454056_2_alg».proof.Proof.Whole

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Body Cert.KernelIdeal.Flat Cert.MatPow

variable (m : (ℓ : Loc nD τ sig) → Buf (Elt Ideal) ℓ) (ρ : Dev nD → PrngReg)

/-- The program's result buffer after the host's last line: the flat result with every row split six by six. -/
theorem tail_v2 (c : Dev nD) :
    (Pipeline.afterTail₀ cfgs (dats m) 0 (V0 m) [hostOps1] c main_v2 : S2000000x6x6.Idx → EReal)
      = shapeCast S2000000x6x6 (flat (flatArg m c)) shapeCasts_S2000000x36_S2000000x6x6 := by
  unfold Pipeline.afterTail₀
  show StableHlo.after hostOps1 _ (Proc.devRef .tc main_v2) = _
  after_results
  have e : (Pipeline.withArrays spec0 c (V0 m c) (fun w => (dats m 0 c).arrAt w cfg0.N)
      (Proc.devRef .tc (Pipeline.arrRef spec0 1)) : S2000000x36.Idx → EReal) = flat (flatArg m c) :=
    (Pipeline.withArrays_arr spec0 launch0.win.arr_inj c _ _ 1).trans (final1 m c)
  funext i
  exact congrFun (congrArg (fun Z : S2000000x36.Idx → EReal =>
    shapeCast S2000000x6x6 Z shapeCasts_S2000000x36_S2000000x6x6) e) i

/-- The program's result is the fourth power of every matrix of its argument. -/
theorem result_eq (c : Dev nD) :
    (Pipeline.afterTail₀ cfgs (dats m) 0 (V0 m) [hostOps1] c main_v2 : S2000000x6x6.Idx → EReal)
      = G (m ((c : Thread nD τ).loc main_arg0)) := by
  rw [tail_v2, flatArg_eq]
  exact split_flat_merge _ _ _

/-- Every weakly fair execution of the program ends with the result at `G` of the argument and the argument unchanged. -/
theorem run : θ_run defs (onTc (τ := τ) (main (F := Ideal))) ⟨m, fun _ => 0, ρ⟩ fun r => ∀ c : Dev nD,
      r.2.mem ((c : Thread nD τ).loc main_v2) = G (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Whole

end
-- ==== Proof.Reference.lean ====
/-
  The reference computes the same function.

  The reference multiplies the pile by itself matrix by matrix, twice. One such product has, at (b, i, j), the sum over
  k of X (b, i, k) * X (b, k, j): the square of matrix b, with the two factors of each product in the other order.
  Multiplication of extended reals commutes, so this is `msq` of matrix b, and two of them are its fourth power.
-/
import proofs.«103735_j48137993454056_2_alg».proof.Proof.Gen.ReferenceIdeal.Read
import proofs.«103735_j48137993454056_2_alg».proof.Proof.Spec

noncomputable section

open scoped BigOperators

namespace Cert.ReferenceIdeal.RefValue

open Cert.ReferenceIdeal Cert.ReferenceIdeal.Read Idealize.ShloMosaic Idealize.ShloMosaic.ValueIdx
open Cert.MatPow

/-- The left factor of term `k` of either product is read at `(b, i, k)` … -/
theorem lidx0_eq (i : S2000000x6x6.Idx) (k : Fin 6) : lidx_main_v0 i k = ix3 (i 0) (i 1) k :=
  funext fun a => Fin.ext (by match a with | ⟨0, _⟩ => rfl | ⟨1, _⟩ => rfl | ⟨2, _⟩ => rfl)
/-- … and the right factor at `(b, k, j)`. -/
theorem ridx0_eq (i : S2000000x6x6.Idx) (k : Fin 6) : ridx_main_v0 i k = ix3 (i 0) k (i 2) :=
  funext fun a => Fin.ext (by match a with | ⟨0, _⟩ => rfl | ⟨1, _⟩ => rfl | ⟨2, _⟩ => rfl)
theorem lidx1_eq (i : S2000000x6x6.Idx) (k : Fin 6) : lidx_main_v1 i k = ix3 (i 0) (i 1) k :=
  funext fun a => Fin.ext (by match a with | ⟨0, _⟩ => rfl | ⟨1, _⟩ => rfl | ⟨2, _⟩ => rfl)
theorem ridx1_eq (i : S2000000x6x6.Idx) (k : Fin 6) : ridx_main_v1 i k = ix3 (i 0) k (i 2) :=
  funext fun a => Fin.ext (by match a with | ⟨0, _⟩ => rfl | ⟨1, _⟩ => rfl | ⟨2, _⟩ => rfl)

/-- The first product, at `(b, i, j)`, is entry `(i, j)` of the square of matrix `b`. -/
theorem first_apply (X : S2000000x6x6.Idx → EReal) (b : Fin 2000000) (i j : Fin 6) :
    val_main_v0 (F := Ideal) X (ix3 b i j) = msq (mat X b) i j := by
  rw [val_main_v0_apply]
  unfold msq mat
  refine Finset.sum_congr rfl fun k _ => ?_
  rw [lidx0_eq, ridx0_eq]
  exact mul_comm _ _

/-- The reference's result is the fourth power of every matrix of the pile. -/
theorem result_eq (X : S2000000x6x6.Idx → EReal) : val_main_v1 (F := Ideal) X = G X := by
  funext i
  obtain ⟨b, p, q, rfl⟩ : ∃ (b : Fin 2000000) (p q : Fin 6), i = ix3 b p q := ⟨i 0, i 1, i 2, eq_ix3 i⟩
  rw [val_main_v1_apply, G_apply]
  show _ = msq (msq (mat X b)) p q
  conv_rhs => unfold msq
  refine Finset.sum_congr rfl fun k _ => ?_
  rw [lidx1_eq, ridx1_eq]
  show val_main_v0 (F := Ideal) X (ix3 b p k) * val_main_v0 (F := Ideal) X (ix3 b k q) = _
  rw [first_apply, first_apply]
  exact mul_comm _ _

end Cert.ReferenceIdeal.RefValue

end
-- ==== Proof.lean ====
/-
  The kernel raises every 6-by-6 matrix of a pile of 2000000 to its fourth power by squaring twice, and so does the
  reference.

  The kernel merges each matrix into a row of 36, hands 8000 rows at a time to a body that lays them on their side
  (entry (p, q) of all 8000 matrices becomes one lane vector), squares that tile twice with lane-wise multiplies and
  adds — entry (i, j) of a square is the running sum over k of tile (k, j) * tile (i, k) — turns the result back and
  stores it, and at the end splits the rows six by six. The reference multiplies the pile by itself matrix by matrix,
  twice: entry (i, j) of a product is the sum over k of X (i, k) * X (k, j). On the extended reals the two sums have the
  same six terms with the two factors of each term exchanged, and multiplication commutes there with no condition on
  the factors, so both programs compute `Cert.MatPow.G` of the argument, entry by entry; the inputs' finiteness is
  not needed. Nothing of the kernel was rewritten when it was idealized, so that claim is `True`.
  The three runs (each program terminates, faults nowhere and leaves its argument alone) are the generated frames;
  the kernel's value is read off its frame run (Proof/Body, Flat, Whole, Run) and the reference's off its generated run
  (Proof/Reference).
-/
import proofs.«103735_j48137993454056_2_alg».proof.Defs
import proofs.«103735_j48137993454056_2_alg».proof.Proof.Gen.Kernel
import proofs.«103735_j48137993454056_2_alg».proof.Proof.Gen.Kernel.Skeleton
import proofs.«103735_j48137993454056_2_alg».proof.Proof.Gen.Kernel.Launch
import proofs.«103735_j48137993454056_2_alg».proof.Proof.Gen.Kernel.Points
import proofs.«103735_j48137993454056_2_alg».proof.Proof.Gen.Kernel.Frame
import proofs.«103735_j48137993454056_2_alg».proof.Proof.Gen.KernelIdeal
import proofs.«103735_j48137993454056_2_alg».proof.Proof.Gen.KernelIdeal.Skeleton
import proofs.«103735_j48137993454056_2_alg».proof.Proof.Gen.KernelIdeal.Launch
import proofs.«103735_j48137993454056_2_alg».proof.Proof.Gen.KernelIdeal.Points
import proofs.«103735_j48137993454056_2_alg».proof.Proof.Gen.KernelIdeal.Frame
import proofs.«103735_j48137993454056_2_alg».proof.Proof.Gen.ReferenceIdeal
import proofs.«103735_j48137993454056_2_alg».proof.Proof.Gen.ReferenceIdeal.Run
import proofs.«103735_j48137993454056_2_alg».proof.Proof.Gen.ReferenceIdeal.Read
import proofs.«103735_j48137993454056_2_alg».proof.Proof.Gen.Pre_finite_inputs
import proofs.«103735_j48137993454056_2_alg».proof.Proof.Run
import proofs.«103735_j48137993454056_2_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and leaves its argument alone. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From arguments that agree, the kernel ends with the fourth power of every matrix of its argument and the
    reference with the fourth power of every matrix of the same argument. -/
theorem algebraic : Cert.algebraic_KernelIdeal_ReferenceIdeal := by
  intro m ρ m' ρ' _ hagree
  refine ⟨fun c => Cert.MatPow.G (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, hagree c]
  exact Cert.ReferenceIdeal.RefValue.result_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
